-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x49x64 : Shape := ⟨4, ![2048, 8, 49, 64]⟩
abbrev S8x49x49 : Shape := ⟨3, ![8, 49, 49]⟩
abbrev S2048x49x49 : Shape := ⟨3, ![2048, 49, 49]⟩
abbrev S_ : Shape := ⟨0, ![]⟩

class Facts : Prop where
  bcast_S_S2048x8x49x64 : S_.BroadcastsInDim S2048x8x49x64 (![] : Fin 0 → Fin S2048x8x49x64.rank)
  reducesTo_S2048x8x49x64_S_d0_1_2_3 : S2048x8x49x64.ReducesTo [0, 1, 2, 3] S_
  h_S_ : 0 < S_.numel
  bcast_S_S8x49x49 : S_.BroadcastsInDim S8x49x49 (![] : Fin 0 → Fin S8x49x49.rank)
  reducesTo_S8x49x49_S_d0_1_2 : S8x49x49.ReducesTo [0, 1, 2] S_
  bcast_S_S2048x49x49 : S_.BroadcastsInDim S2048x49x49 (![] : Fin 0 → Fin S2048x49x49.rank)
  reducesTo_S2048x49x49_S_d0_1_2 : S2048x49x49.ReducesTo [0, 1, 2] S_

variable [Facts]

def fn_part1 {F : FTy → Type} [FloatOps F] (main_arg4 : FVec F S2048x49x49 .f32) (main_v13 : IVec S_ 1) (main_v16 : IVec S8x49x49 1) : IVec S_ 1 :=
  let main_c_5 : IVec S_ 1 := constantI S_ 1 1#1
  let main_v17 : IVec S_ 1 := (fun x v => Host.reduce IntOp.andi x v reducesTo_S8x49x49_S_d0_1_2 h_S_) main_v16 main_c_5
  let main_v18 : IVec S_ 1 := andi main_v13 main_v17
  let main_v19 : FVec F S2048x49x49 .f32 := Host.absf main_arg4
  let main_cst_6 : FVec F S_ .f32 := constant S_ .f32 0x7F800000#32
  let main_v20 : FVec F S2048x49x49 .f32 := broadcastInDim S2048x49x49 ![] bcast_S_S2048x49x49 main_cst_6
  let main_v21 : IVec S2048x49x49 1 := cmpf .olt main_v19 main_v20
  let main_c_7 : IVec S_ 1 := constantI S_ 1 1#1
  let main_v22 : IVec S_ 1 := (fun x v => Host.reduce IntOp.andi x v reducesTo_S2048x49x49_S_d0_1_2 h_S_) main_v21 main_c_7
  let main_v23 : IVec S_ 1 := andi main_v18 main_v22
  main_v23

def fn {F : FTy → Type} [FloatOps F] (main_arg0 : FVec F S2048x8x49x64 .f32) (main_arg1 : FVec F S2048x8x49x64 .f32) (main_arg2 : FVec F S2048x8x49x64 .f32) (main_arg3 : FVec F S8x49x49 .f32) (main_arg4 : FVec F S2048x49x49 .f32) : IVec S_ 1 :=
  let main_v0 : FVec F S2048x8x49x64 .f32 := Host.absf main_arg0
  let main_cst : FVec F S_ .f32 := constant S_ .f32 0x7F800000#32
  let main_v1 : FVec F S2048x8x49x64 .f32 := broadcastInDim S2048x8x49x64 ![] bcast_S_S2048x8x49x64 main_cst
  let main_v2 : IVec S2048x8x49x64 1 := cmpf .olt main_v0 main_v1
  let main_c : IVec S_ 1 := constantI S_ 1 1#1
  let main_v3 : IVec S_ 1 := (fun x v => Host.reduce IntOp.andi x v reducesTo_S2048x8x49x64_S_d0_1_2_3 h_S_) main_v2 main_c
  let main_v4 : FVec F S2048x8x49x64 .f32 := Host.absf main_arg1
  let main_cst_0 : FVec F S_ .f32 := constant S_ .f32 0x7F800000#32
  let main_v5 : FVec F S2048x8x49x64 .f32 := broadcastInDim S2048x8x49x64 ![] bcast_S_S2048x8x49x64 main_cst_0
  let main_v6 : IVec S2048x8x49x64 1 := cmpf .olt main_v4 main_v5
  let main_c_1 : IVec S_ 1 := constantI S_ 1 1#1
  let main_v7 : IVec S_ 1 := (fun x v => Host.reduce IntOp.andi x v reducesTo_S2048x8x49x64_S_d0_1_2_3 h_S_) main_v6 main_c_1
  let main_v8 : IVec S_ 1 := andi main_v3 main_v7
  let main_v9 : FVec F S2048x8x49x64 .f32 := Host.absf main_arg2
  let main_cst_2 : FVec F S_ .f32 := constant S_ .f32 0x7F800000#32
  let main_v10 : FVec F S2048x8x49x64 .f32 := broadcastInDim S2048x8x49x64 ![] bcast_S_S2048x8x49x64 main_cst_2
  let main_v11 : IVec S2048x8x49x64 1 := cmpf .olt main_v9 main_v10
  let main_c_3 : IVec S_ 1 := constantI S_ 1 1#1
  let main_v12 : IVec S_ 1 := (fun x v => Host.reduce IntOp.andi x v reducesTo_S2048x8x49x64_S_d0_1_2_3 h_S_) main_v11 main_c_3
  let main_v13 : IVec S_ 1 := andi main_v8 main_v12
  let main_v14 : FVec F S8x49x49 .f32 := Host.absf main_arg3
  let main_cst_4 : FVec F S_ .f32 := constant S_ .f32 0x7F800000#32
  let main_v15 : FVec F S8x49x49 .f32 := broadcastInDim S8x49x49 ![] bcast_S_S8x49x49 main_cst_4
  let main_v16 : IVec S8x49x49 1 := cmpf .olt main_v14 main_v15
  fn_part1 (F := F) main_arg4 main_v13 main_v16
-- ==== Kernel.lean ====
abbrev S2048x8x49x64 : Shape := ⟨4, ![2048, 8, 49, 64]⟩
abbrev S8x49x49 : Shape := ⟨3, ![8, 49, 49]⟩
abbrev S2048x49x49 : Shape := ⟨3, ![2048, 49, 49]⟩
abbrev S8x8x49x64 : Shape := ⟨4, ![8, 8, 49, 64]⟩
abbrev S64x49x64 : Shape := ⟨3, ![64, 49, 64]⟩
abbrev S64x49x49 : Shape := ⟨3, ![64, 49, 49]⟩
abbrev S8x8x49x49 : Shape := ⟨4, ![8, 8, 49, 49]⟩
abbrev S1x8x49x49 : Shape := ⟨4, ![1, 8, 49, 49]⟩
abbrev S8x1x49x49 : Shape := ⟨4, ![8, 1, 49, 49]⟩
abbrev S8x8x49 : Shape := ⟨3, ![8, 8, 49]⟩
abbrev S8x8x49x1 : Shape := ⟨4, ![8, 8, 49, 1]⟩

abbrev nBuf : Space → Nat
  | .hbm => 6
  | .vmem => 11
  | .smem => 0
  | _ => 0

abbrev bufTy : (tb : Table) → Fin (tcTables nBuf tb) → BufTy
  | .hbm, ⟨0, _⟩ => ⟨S2048x8x49x64, .f32⟩
  | .hbm, ⟨1, _⟩ => ⟨S2048x8x49x64, .f32⟩
  | .hbm, ⟨2, _⟩ => ⟨S2048x8x49x64, .f32⟩
  | .hbm, ⟨3, _⟩ => ⟨S8x49x49, .f32⟩
  | .hbm, ⟨4, _⟩ => ⟨S2048x49x49, .f32⟩
  | .hbm, ⟨5, _⟩ => ⟨S2048x8x49x64, .f32⟩
  | .local _ .vmem, ⟨0, _⟩ => ⟨S8x8x49x64, .f32⟩
  | .local _ .vmem, ⟨1, _⟩ => ⟨S8x8x49x64, .f32⟩
  | .local _ .vmem, ⟨2, _⟩ => ⟨S8x8x49x64, .f32⟩
  | .local _ .vmem, ⟨3, _⟩ => ⟨S8x8x49x64, .f32⟩
  | .local _ .vmem, ⟨4, _⟩ => ⟨S8x8x49x64, .f32⟩
  | .local _ .vmem, ⟨5, _⟩ => ⟨S8x8x49x64, .f32⟩
  | .local _ .vmem, ⟨6, _⟩ => ⟨S8x49x49, .f32⟩
  | .local _ .vmem, ⟨7, _⟩ => ⟨S8x49x49, .f32⟩
  | .local _ .vmem, ⟨8, _⟩ => ⟨S8x49x49, .f32⟩
  | .local _ .vmem, ⟨9, _⟩ => ⟨S8x8x49x64, .f32⟩
  | .local _ .vmem, ⟨10, _⟩ => ⟨S8x8x49x64, .f32⟩
  | _, _ => ⟨S2048x8x49x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x49x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x49x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x49x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x49x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x49x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x49x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8x8x49x64_S8x8x49x64_0_0_0_0 : ∀ a, (![0, 0, 0, 0] : Fin 4 → Nat) a + S8x8x49x64.size a ≤ S8x8x49x64.size a
  h_S8x8x49x64 : 0 < S8x8x49x64.numel
  bitsLt_bf16_f32 : FTy.bits .bf16 < FTy.bits .f32
  shapeCasts_S8x8x49x64_S64x49x64 : S8x8x49x64.ShapeCasts S64x49x64
  shapeCasts_S64x49x49_S8x8x49x49 : S64x49x49.ShapeCasts S8x8x49x49
  inb_S8x49x49_S8x49x49_0_0_0 : ∀ a, (![0, 0, 0] : Fin 3 → Nat) a + S8x49x49.size a ≤ S8x49x49.size a
  h_S8x49x49 : 0 < S8x49x49.numel
  shapeCasts_S8x49x49_S1x8x49x49 : S8x49x49.ShapeCasts S1x8x49x49
  broadcasts_S1x8x49x49_S8x8x49x49 : S1x8x49x49.Broadcasts S8x8x49x49
  shapeCasts_S8x49x49_S8x1x49x49 : S8x49x49.ShapeCasts S8x1x49x49
  broadcasts_S8x1x49x49_S8x8x49x49 : S8x1x49x49.Broadcasts S8x8x49x49
  reduces_S8x8x49x49_S8x8x49 : S8x8x49x49.Reduces [3] S8x8x49
  shapeCasts_S8x8x49_S8x8x49x1 : S8x8x49.ShapeCasts S8x8x49x1
  broadcasts_S8x8x49x1_S8x8x49x49 : S8x8x49x1.Broadcasts S8x8x49x49
  shapeCasts_S8x8x49x49_S64x49x49 : S8x8x49x49.ShapeCasts S64x49x49
  shapeCasts_S64x49x64_S8x8x49x64 : S64x49x64.ShapeCasts S8x8x49x64
  dot_S64x49x64_S64x49x64_S64x49x49_2_2_1_1_0_0_wf : DotDims.WF S64x49x64 S64x49x64 S64x49x49 [2] [2] [1] [1] [0] [0]
  dot_S64x49x49_S64x49x64_S64x49x64_2_1_1_2_0_0_wf : DotDims.WF S64x49x49 S64x49x64 S64x49x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x49x64.size a ≤ S2048x8x49x64.size a
  hwx0_0 : ∀ i : grid0.Coords, EltTy.bits .f32 = 32 ∨ (Rect.block (s := S2048x8x49x64) S8x8x49x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x49x64.size a ≤ S2048x8x49x64.size a
  hwx0_1 : ∀ i : grid0.Coords, EltTy.bits .f32 = 32 ∨ (Rect.block (s := S2048x8x49x64) S8x8x49x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8x49x64.size a ≤ S2048x8x49x64.size a
  hwx0_2 : ∀ i : grid0.Coords, EltTy.bits .f32 = 32 ∨ (Rect.block (s := S2048x8x49x64) S8x8x49x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x49x49.size a ≤ S8x49x49.size a
  hwx0_3 : ∀ i : grid0.Coords, EltTy.bits .f32 = 32 ∨ (Rect.block (s := S8x49x49) S8x49x49.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x49x49.size a ≤ S2048x49x49.size a
  hwx0_4 : ∀ i : grid0.Coords, EltTy.bits .f32 = 32 ∨ (Rect.block (s := S2048x49x49) S8x49x49.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x8x49x64.size a ≤ S2048x8x49x64.size a
  hwx0_5 : ∀ i : grid0.Coords, EltTy.bits .f32 = 32 ∨ (Rect.block (s := S2048x8x49x64) S8x8x49x64.size (cc0_transform_5 i) (hinb0_5 i)).WholeWords (EltTy.packing .f32)

variable [Facts₀]

def dot_S64x49x64_S64x49x64_S64x49x49_2_2_1_1_0_0 : DotDims S64x49x64 S64x49x64 S64x49x49 where
  lhsContracting := [2]
  rhsContracting := [2]
  lhsNonContracting := [1]
  rhsNonContracting := [1]
  lhsBatch := [0]
  rhsBatch := [0]
  wf := dot_S64x49x64_S64x49x64_S64x49x49_2_2_1_1_0_0_wf
def dot_S64x49x49_S64x49x64_S64x49x64_2_1_1_2_0_0 : DotDims S64x49x49 S64x49x64 S64x49x64 where
  lhsContracting := [2]
  rhsContracting := [1]
  lhsNonContracting := [1]
  rhsNonContracting := [2]
  lhsBatch := [0]
  rhsBatch := [0]
  wf := dot_S64x49x49_S64x49x64_S64x49x64_2_1_1_2_0_0_wf

abbrev win0_0 : Pipeline.Window sig grid0 :=
  Pipeline.Window.ofSpec (Memref.whole main_arg0) S8x8x49x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8x49x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x8x49x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x49x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x49x49.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8x8x49x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x8x49x64 : Shape := ⟨4, ![2048, 8, 49, 64]⟩
abbrev S8x49x49 : Shape := ⟨3, ![8, 49, 49]⟩
abbrev S2048x49x49 : Shape := ⟨3, ![2048, 49, 49]⟩
abbrev S2048x8x49x49 : Shape := ⟨4, ![2048, 8, 49, 49]⟩
abbrev S1x8x49x49 : Shape := ⟨4, ![1, 8, 49, 49]⟩
abbrev S2048x1x49x49 : Shape := ⟨4, ![2048, 1, 49, 49]⟩
abbrev S_ : Shape := ⟨0, ![]⟩
abbrev S2048x8x49 : Shape := ⟨3, ![2048, 8, 49]⟩
abbrev S2048x8x49x1 : Shape := ⟨4, ![2048, 8, 49, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x8x49x64, .f32⟩
  | .hbm, ⟨1, _⟩ => ⟨S2048x8x49x64, .f32⟩
  | .hbm, ⟨2, _⟩ => ⟨S2048x8x49x64, .f32⟩
  | .hbm, ⟨3, _⟩ => ⟨S8x49x49, .f32⟩
  | .hbm, ⟨4, _⟩ => ⟨S2048x49x49, .f32⟩
  | .hbm, ⟨5, _⟩ => ⟨S2048x8x49x49, .f32⟩
  | .hbm, ⟨6, _⟩ => ⟨S1x8x49x49, .f32⟩
  | .hbm, ⟨7, _⟩ => ⟨S2048x8x49x49, .f32⟩
  | .hbm, ⟨8, _⟩ => ⟨S2048x8x49x49, .f32⟩
  | .hbm, ⟨9, _⟩ => ⟨S2048x1x49x49, .f32⟩
  | .hbm, ⟨10, _⟩ => ⟨S2048x8x49x49, .f32⟩
  | .hbm, ⟨11, _⟩ => ⟨S2048x8x49x49, .f32⟩
  | .hbm, ⟨12, _⟩ => ⟨S_, .f32⟩
  | .hbm, ⟨13, _⟩ => ⟨S2048x8x49, .f32⟩
  | .hbm, ⟨14, _⟩ => ⟨S_, .f32⟩
  | .hbm, ⟨15, _⟩ => ⟨S2048x8x49, .f32⟩
  | .hbm, ⟨16, _⟩ => ⟨S2048x8x49, .f32⟩
  | .hbm, ⟨17, _⟩ => ⟨S2048x8x49x1, .f32⟩
  | .hbm, ⟨18, _⟩ => ⟨S2048x8x49x49, .f32⟩
  | .hbm, ⟨19, _⟩ => ⟨S2048x8x49x49, .f32⟩
  | .hbm, ⟨20, _⟩ => ⟨S2048x8x49x49, .f32⟩
  | .hbm, ⟨21, _⟩ => ⟨S_, .f32⟩
  | .hbm, ⟨22, _⟩ => ⟨S2048x8x49, .f32⟩
  | .hbm, ⟨23, _⟩ => ⟨S2048x8x49x1, .f32⟩
  | .hbm, ⟨24, _⟩ => ⟨S2048x8x49x49, .f32⟩
  | .hbm, ⟨25, _⟩ => ⟨S2048x8x49x49, .f32⟩
  | .hbm, ⟨26, _⟩ => ⟨S2048x8x49x64, .f32⟩
  | _, _ => ⟨S2048x8x49x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S8x49x49_S1x8x49x49_1_2_3 : S8x49x49.BroadcastsInDim S1x8x49x49 (![1, 2, 3] : Fin 3 → Fin S1x8x49x49.rank)
  bcast_S1x8x49x49_S2048x8x49x49_0_1_2_3 : S1x8x49x49.BroadcastsInDim S2048x8x49x49 (![0, 1, 2, 3] : Fin 4 → Fin S2048x8x49x49.rank)
  bcast_S2048x49x49_S2048x1x49x49_0_2_3 : S2048x49x49.BroadcastsInDim S2048x1x49x49 (![0, 2, 3] : Fin 3 → Fin S2048x1x49x49.rank)
  bcast_S2048x1x49x49_S2048x8x49x49_0_1_2_3 : S2048x1x49x49.BroadcastsInDim S2048x8x49x49 (![0, 1, 2, 3] : Fin 4 → Fin S2048x8x49x49.rank)
  reducesTo_S2048x8x49x49_S2048x8x49_d3 : S2048x8x49x49.ReducesTo [3] S2048x8x49
  h_S_ : 0 < S_.numel
  bcast_S_S2048x8x49 : S_.BroadcastsInDim S2048x8x49 (![] : Fin 0 → Fin S2048x8x49.rank)
  bcast_S2048x8x49_S2048x8x49x1_0_1_2 : S2048x8x49.BroadcastsInDim S2048x8x49x1 (![0, 1, 2] : Fin 3 → Fin S2048x8x49x1.rank)
  bcast_S2048x8x49x1_S2048x8x49x49_0_1_2_3 : S2048x8x49x1.BroadcastsInDim S2048x8x49x49 (![0, 1, 2, 3] : Fin 4 → Fin S2048x8x49x49.rank)
  dot_S2048x8x49x64_S2048x8x49x64_S2048x8x49x49_3_3_2_2_01_01_wf : DotDims.WF S2048x8x49x64 S2048x8x49x64 S2048x8x49x49 [3] [3] [2] [2] [0, 1] [0, 1]
  dot_S2048x8x49x49_S2048x8x49x64_S2048x8x49x64_3_2_2_3_01_01_wf : DotDims.WF S2048x8x49x49 S2048x8x49x64 S2048x8x49x64 [3] [2] [2] [3] [0, 1] [0, 1]

variable [Facts₀]

def dot_S2048x8x49x64_S2048x8x49x64_S2048x8x49x49_3_3_2_2_01_01 : DotDims S2048x8x49x64 S2048x8x49x64 S2048x8x49x49 where
  lhsContracting := [3]
  rhsContracting := [3]
  lhsNonContracting := [2]
  rhsNonContracting := [2]
  lhsBatch := [0, 1]
  rhsBatch := [0, 1]
  wf := dot_S2048x8x49x64_S2048x8x49x64_S2048x8x49x49_3_3_2_2_01_01_wf
def dot_S2048x8x49x49_S2048x8x49x64_S2048x8x49x64_3_2_2_3_01_01 : DotDims S2048x8x49x49 S2048x8x49x64 S2048x8x49x64 where
  lhsContracting := [3]
  rhsContracting := [2]
  lhsNonContracting := [2]
  rhsNonContracting := [3]
  lhsBatch := [0, 1]
  rhsBatch := [0, 1]
  wf := dot_S2048x8x49x49_S2048x8x49x64_S2048x8x49x64_3_2_2_3_01_01_wf

class Facts : Prop extends Facts₀ where

variable [Facts]
-- ==== Proof.Attention.lean ====
/-
  Softmax attention with two additive biases, on the extended reals, one output element at a time.

  For a batch entry b, a head h and a query row n the 49 scores are
      s_m = (∑_e q_e · k_{m,e}) + p_m + w_m        (m = 0 … 48),
  the inner product of the query row with key row m over the 64 features, plus the head's positional bias
  p_m and the batch entry's window mask w_m, added in that order. The row's maximum M is the fold of `max`
  over the scores starting from −∞ (and once more capped below by −∞, as both programs do), the weights are
  e^(s_m − M) divided by their sum, and the output at feature d is the weights' inner product with column d of
  the values. Nothing here mentions a tile or a memory layout: a row of scores and a column of values are plain
  functions on `Fin 49`, so the same definitions read an 8-batch block and the whole 2048-batch array.
-/
import Idealize.ShloMosaic.PureOps.Ideal
import Idealize.ShloMosaic.Lib.ValueIdx

noncomputable section

namespace Cert.Attention

open Idealize.ShloMosaic Idealize.ShloMosaic.ValueIdx

/-- The value a row's maximum starts from: the f32 pattern of −∞. -/
abbrev negInf : EReal := Ideal.ofBits .f32 0xFF800000#32

/-- A row's maximum: the fold of `max` from −∞ over the 49 scores, capped below by −∞ once more. -/
def rowMax (s : Fin 49 → EReal) : EReal :=
  max negInf ((Finset.univ : Finset (Fin 49)).fold max negInf s)

/-- The unnormalised weight of key m: e^(s_m − M). -/
def rowExp (s : Fin 49 → EReal) (m : Fin 49) : EReal := Ideal.exp (s m - rowMax s)

/-- The softmax weight of key m: its unnormalised weight divided by the sum of all 49. -/
def rowSoftmax (s : Fin 49 → EReal) (m : Fin 49) : EReal :=
  Ideal.div (rowExp s m) (∑ m' : Fin 49, rowExp s m')

/-- One output element: the inner product of the softmax weights with a column of values. -/
def attnRow (s v : Fin 49 → EReal) : EReal := ∑ m : Fin 49, rowSoftmax s m * v m

/-- The 49 scores of one query row: its inner products with the key rows, then the positional bias, then the mask. -/
def scoreRow (q : Fin 64 → EReal) (k : Fin 49 → Fin 64 → EReal) (p w : Fin 49 → EReal) : Fin 49 → EReal :=
  fun m => (∑ e : Fin 64, q e * k m e) + p m + w m

/-- The whole result array: element (b, h, n, d) is `attnRow` of query row (b, h, n) against the keys and values of
    (b, h), with head h's positional bias row n and batch entry b's mask row n. -/
def attention (Q K V : (⟨4, ![2048, 8, 49, 64]⟩ : Shape).Idx → EReal) (P : (⟨3, ![8, 49, 49]⟩ : Shape).Idx → EReal)
    (W : (⟨3, ![2048, 49, 49]⟩ : Shape).Idx → EReal) : (⟨4, ![2048, 8, 49, 64]⟩ : Shape).Idx → EReal :=
  fun i =>
    attnRow
      (scoreRow (fun e => Q (ix4 (i 0) (i 1) (i 2) e)) (fun m e => K (ix4 (i 0) (i 1) m e))
        (fun m => P (ix3 (i 1) (i 2) m)) (fun m => W (ix3 (i 0) (i 2) m)))
      (fun m => V (ix4 (i 0) (i 1) m (i 3)))

/-- The array at an index given by its coordinates. -/
theorem attention_apply (Q K V : (⟨4, ![2048, 8, 49, 64]⟩ : Shape).Idx → EReal) (P : (⟨3, ![8, 49, 49]⟩ : Shape).Idx → EReal)
    (W : (⟨3, ![2048, 49, 49]⟩ : Shape).Idx → EReal) (b : Fin 2048) (h : Fin 8) (n : Fin 49) (d : Fin 64) :
    attention Q K V P W (ix4 b h n d)
      = attnRow
          (scoreRow (fun e => Q (ix4 b h n e)) (fun m e => K (ix4 b h m e)) (fun m => P (ix3 h n m)) (fun m => W (ix3 b n m)))
          (fun m => V (ix4 b h m d)) := rfl

end Cert.Attention

end
-- ==== Proof.BlockCasts.lean ====
/-
  Re-layings of one grid step's block, read at an index.

  A grid step holds 8 batch entries × 8 heads. For its two batched matrix products the body folds the pair
  (batch entry tb, head h) into one batch coordinate 8·tb + h, a row-major cast of [8, 8, r, c] to [64, r, c],
  and unfolds the products' results the same way back. The positional bias [8, 49, 49] is repeated over the 8 batch
  entries, the mask [8, 49, 49] over the 8 heads, and a per-row statistic [8, 8, 49] along the 49 keys. Each
  lemma below reads one of these at an index given by its coordinates.
-/
import Idealize.ShloMosaic.Lib.Pipeline.Value
import Idealize.ShloMosaic.Lib.ValueIdx

noncomputable section

namespace Cert.Attention

open Idealize.ShloMosaic Idealize.ShloMosaic.ValueIdx

variable {α : Type}

/-- The folded batch coordinate of (batch entry tb, head h). -/
abbrev fold8 (tb h : Fin 8) : Fin 64 := ⟨tb.val * 8 + h.val, by omega⟩

/-- [8, 8, 49, c] viewed as [64, 49, c]: entry (8·tb + h, n, e) is entry (tb, h, n, e). -/
theorem fold_apply {c : Nat} (x : (⟨4, ![8, 8, 49, c]⟩ : Shape).Idx → α)
    (hc : (⟨4, ![8, 8, 49, c]⟩ : Shape).ShapeCasts ⟨3, ![64, 49, c]⟩) (tb h : Fin 8) (n : Fin 49) (e : Fin c) :
    shapeCast ⟨3, ![64, 49, c]⟩ x hc (ix3 (fold8 tb h) n e) = x (ix4 tb h n e) := by
  refine shapeCast_apply x hc (ix3 (fold8 tb h) n e) (ix4 tb h n e) ?_
  rw [Shape.rowMajor_val_three, Shape.rowMajor_val_four]
  show ((tb.val * 8 + h.val) * 49 + n.val) * c + e.val = ((tb.val * 8 + h.val) * 49 + n.val) * c + e.val
  rfl

/-- [64, 49, c] viewed as [8, 8, 49, c]: entry (tb, h, n, e) is entry (8·tb + h, n, e). -/
theorem unfold_apply {c : Nat} (x : (⟨3, ![64, 49, c]⟩ : Shape).Idx → α)
    (hc : (⟨3, ![64, 49, c]⟩ : Shape).ShapeCasts ⟨4, ![8, 8, 49, c]⟩) (tb h : Fin 8) (n : Fin 49) (e : Fin c) :
    shapeCast ⟨4, ![8, 8, 49, c]⟩ x hc (ix4 tb h n e) = x (ix3 (fold8 tb h) n e) := by
  refine shapeCast_apply x hc (ix4 tb h n e) (ix3 (fold8 tb h) n e) ?_
  rw [Shape.rowMajor_val_three, Shape.rowMajor_val_four]
  show ((tb.val * 8 + h.val) * 49 + n.val) * c + e.val = ((tb.val * 8 + h.val) * 49 + n.val) * c + e.val
  rfl

/-- The positional bias repeated over the block's batch entries: entry (tb, h, n, m) is the bias at (h, n, m). -/
theorem perHead_apply (p : (⟨3, ![8, 49, 49]⟩ : Shape).Idx → α)
    (hc : (⟨3, ![8, 49, 49]⟩ : Shape).ShapeCasts ⟨4, ![1, 8, 49, 49]⟩)
    (hb : (⟨4, ![1, 8, 49, 49]⟩ : Shape).Broadcasts ⟨4, ![8, 8, 49, 49]⟩) (tb h : Fin 8) (n m : Fin 49) :
    broadcastTo ⟨4, ![8, 8, 49, 49]⟩ (shapeCast ⟨4, ![1, 8, 49, 49]⟩ p hc) hb (ix4 tb h n m) = p (ix3 h n m) := by
  refine (broadcastTo_apply _ hb (ix4 tb h n m) (ix4 (0 : Fin 1) h n m) ?_).trans ?_
  · intro a
    match a with
    | ⟨0, _⟩ => show 0 = if (1 : Nat) = 1 then 0 else tb.val; rw [if_pos rfl]
    | ⟨1, _⟩ => show h.val = if (8 : Nat) = 1 then 0 else h.val; rw [if_neg (by decide)]
    | ⟨2, _⟩ => show n.val = if (49 : Nat) = 1 then 0 else n.val; rw [if_neg (by decide)]
    | ⟨3, _⟩ => show m.val = if (49 : Nat) = 1 then 0 else m.val; rw [if_neg (by decide)]
  · refine shapeCast_apply p hc (ix4 (0 : Fin 1) h n m) (ix3 h n m) ?_
    rw [Shape.rowMajor_val_three, Shape.rowMajor_val_four]
    show (h.val * 49 + n.val) * 49 + m.val = ((0 * 8 + h.val) * 49 + n.val) * 49 + m.val
    omega

/-- The mask repeated over the block's heads: entry (tb, h, n, m) is the mask at (tb, n, m). -/
theorem perBatch_apply (w : (⟨3, ![8, 49, 49]⟩ : Shape).Idx → α)
    (hc : (⟨3, ![8, 49, 49]⟩ : Shape).ShapeCasts ⟨4, ![8, 1, 49, 49]⟩)
    (hb : (⟨4, ![8, 1, 49, 49]⟩ : Shape).Broadcasts ⟨4, ![8, 8, 49, 49]⟩) (tb h : Fin 8) (n m : Fin 49) :
    broadcastTo ⟨4, ![8, 8, 49, 49]⟩ (shapeCast ⟨4, ![8, 1, 49, 49]⟩ w hc) hb (ix4 tb h n m) = w (ix3 tb n m) := by
  refine (broadcastTo_apply _ hb (ix4 tb h n m) (ix4 tb (0 : Fin 1) n m) ?_).trans ?_
  · intro a
    match a with
    | ⟨0, _⟩ => show tb.val = if (8 : Nat) = 1 then 0 else tb.val; rw [if_neg (by decide)]
    | ⟨1, _⟩ => show 0 = if (1 : Nat) = 1 then 0 else h.val; rw [if_pos rfl]
    | ⟨2, _⟩ => show n.val = if (49 : Nat) = 1 then 0 else n.val; rw [if_neg (by decide)]
    | ⟨3, _⟩ => show m.val = if (49 : Nat) = 1 then 0 else m.val; rw [if_neg (by decide)]
  · refine shapeCast_apply w hc (ix4 tb (0 : Fin 1) n m) (ix3 tb n m) ?_
    rw [Shape.rowMajor_val_three, Shape.rowMajor_val_four]
    show (tb.val * 49 + n.val) * 49 + m.val = ((tb.val * 1 + 0) * 49 + n.val) * 49 + m.val
    omega

/-- A per-row statistic repeated along the keys: entry (tb, h, n, m) is the statistic of row (tb, h, n). -/
theorem perRow_apply (r : (⟨3, ![8, 8, 49]⟩ : Shape).Idx → α)
    (hc : (⟨3, ![8, 8, 49]⟩ : Shape).ShapeCasts ⟨4, ![8, 8, 49, 1]⟩)
    (hb : (⟨4, ![8, 8, 49, 1]⟩ : Shape).Broadcasts ⟨4, ![8, 8, 49, 49]⟩) (tb h : Fin 8) (n m : Fin 49) :
    broadcastTo ⟨4, ![8, 8, 49, 49]⟩ (shapeCast ⟨4, ![8, 8, 49, 1]⟩ r hc) hb (ix4 tb h n m) = r (ix3 tb h n) := by
  refine (broadcastTo_apply _ hb (ix4 tb h n m) (ix4 tb h n (0 : Fin 1)) ?_).trans ?_
  · intro a
    match a with
    | ⟨0, _⟩ => show tb.val = if (8 : Nat) = 1 then 0 else tb.val; rw [if_neg (by decide)]
    | ⟨1, _⟩ => show h.val = if (8 : Nat) = 1 then 0 else h.val; rw [if_neg (by decide)]
    | ⟨2, _⟩ => show n.val = if (49 : Nat) = 1 then 0 else n.val; rw [if_neg (by decide)]
    | ⟨3, _⟩ => show 0 = if (1 : Nat) = 1 then 0 else m.val; rw [if_pos rfl]
  · refine shapeCast_apply r hc (ix4 tb h n (0 : Fin 1)) (ix3 tb h n) ?_
    rw [Shape.rowMajor_val_three, Shape.rowMajor_val_four]
    show (tb.val * 8 + h.val) * 49 + n.val = ((tb.val * 8 + h.val) * 49 + n.val) * 1 + 0
    omega

end Cert.Attention

end
-- ==== Proof.BlockProducts.lean ====
/-
  The block's two batched matrix products, read at an index.

  Both products run over the folded batch coordinate 8·tb + h. The first contracts the 64 features of a query
  row with those of a key row: entry (tb, h, n, m) of its unfolded result is ∑_e a(tb, h, n, e) · b(tb, h, m, e).
  The second contracts the 49 keys of a weight row with a column of values: entry (tb, h, n, d) of its unfolded
  result is ∑_m a(tb, h, n, m) · v(tb, h, m, d). Into a zero accumulator a matrix product on the extended reals is
  exactly that sum; what is proved here is which operand entries the contraction index visits.
-/
import proofs.«159746_j25056839204932_1_alg».proof.Proof.Gen.KernelIdeal
import proofs.«159746_j25056839204932_1_alg».proof.Proof.BlockCasts
import Idealize.ShloMosaic.PureOps.Ideal.Laws

noncomputable section

namespace Cert.Attention

open Idealize.ShloMosaic Idealize.ShloMosaic.ValueIdx Cert.KernelIdeal Cert.KernelIdeal.Gen

/-! ## Queries against keys: the features are contracted

At output entry i = (E, n, m) and contraction coordinate q the left operand is read at (E, n, q) and the right at
(E, m, q): the batch coordinate is shared, each operand keeps its own row, the last coordinate is contracted. -/

theorem qk_lhs_0 (i : S64x49x49.Idx) (q : dot_S64x49x64_S64x49x64_S64x49x49_2_2_1_1_0_0.contr.Idx) :
    (dot_S64x49x64_S64x49x64_S64x49x49_2_2_1_1_0_0.lhsIdx i q 0).val = (i 0).val := by
  unfold DotDims.lhsIdx
  rw [dif_pos (show (0 : Fin S64x49x64.rank) ∈ dot_S64x49x64_S64x49x64_S64x49x49_2_2_1_1_0_0.lhsBatch by decide)]
  rfl

theorem qk_lhs_1 (i : S64x49x49.Idx) (q : dot_S64x49x64_S64x49x64_S64x49x49_2_2_1_1_0_0.contr.Idx) :
    (dot_S64x49x64_S64x49x64_S64x49x49_2_2_1_1_0_0.lhsIdx i q 1).val = (i 1).val := by
  unfold DotDims.lhsIdx
  rw [dif_neg (show ¬(1 : Fin S64x49x64.rank) ∈ dot_S64x49x64_S64x49x64_S64x49x49_2_2_1_1_0_0.lhsBatch by decide),
    dif_pos (show (1 : Fin S64x49x64.rank) ∈ dot_S64x49x64_S64x49x64_S64x49x49_2_2_1_1_0_0.lhsNonContracting by decide)]
  rfl

theorem qk_lhs_2 (i : S64x49x49.Idx) (q : dot_S64x49x64_S64x49x64_S64x49x49_2_2_1_1_0_0.contr.Idx) :
    (dot_S64x49x64_S64x49x64_S64x49x49_2_2_1_1_0_0.lhsIdx i q 2).val = (q ⟨0, by decide⟩).val :=
  dot_S64x49x64_S64x49x64_S64x49x49_2_2_1_1_0_0.lhsIdx_val_of_single rfl i q

theorem qk_rhs_0 (i : S64x49x49.Idx) (q : dot_S64x49x64_S64x49x64_S64x49x49_2_2_1_1_0_0.contr.Idx) :
    (dot_S64x49x64_S64x49x64_S64x49x49_2_2_1_1_0_0.rhsIdx i q 0).val = (i 0).val := by
  unfold DotDims.rhsIdx
  rw [dif_pos (show (0 : Fin S64x49x64.rank) ∈ dot_S64x49x64_S64x49x64_S64x49x49_2_2_1_1_0_0.rhsBatch by decide)]
  rfl

theorem qk_rhs_1 (i : S64x49x49.Idx) (q : dot_S64x49x64_S64x49x64_S64x49x49_2_2_1_1_0_0.contr.Idx) :
    (dot_S64x49x64_S64x49x64_S64x49x49_2_2_1_1_0_0.rhsIdx i q 1).val = (i 2).val := by
  unfold DotDims.rhsIdx
  rw [dif_neg (show ¬(1 : Fin S64x49x64.rank) ∈ dot_S64x49x64_S64x49x64_S64x49x49_2_2_1_1_0_0.rhsBatch by decide),
    dif_pos (show (1 : Fin S64x49x64.rank) ∈ dot_S64x49x64_S64x49x64_S64x49x49_2_2_1_1_0_0.rhsNonContracting by decide)]
  rfl

theorem qk_rhs_2 (i : S64x49x49.Idx) (q : dot_S64x49x64_S64x49x64_S64x49x49_2_2_1_1_0_0.contr.Idx) :
    (dot_S64x49x64_S64x49x64_S64x49x49_2_2_1_1_0_0.rhsIdx i q 2).val = (q ⟨0, by decide⟩).val :=
  dot_S64x49x64_S64x49x64_S64x49x49_2_2_1_1_0_0.rhsIdx_val_of_single rfl i q

/-- The scores' product: entry (tb, h, n, m) is the inner product over the features of query row (tb, h, n) and
    key row (tb, h, m). -/
theorem qk_apply (a b : FVec Ideal S8x8x49x64 .bf16) (tb h : Fin 8) (n m : Fin 49) :
    shapeCast S8x8x49x49
        (matmul dot_S64x49x64_S64x49x64_S64x49x49_2_2_1_1_0_0 none
          (shapeCast S64x49x64 a shapeCasts_S8x8x49x64_S64x49x64) (shapeCast S64x49x64 b shapeCasts_S8x8x49x64_S64x49x64)
          (constant (F := Ideal) S64x49x49 .f32 0x00000000#32))
        shapeCasts_S64x49x49_S8x8x49x49 (ix4 tb h n m)
      = ∑ e : Fin 64, a (ix4 tb h n e) * b (ix4 tb h m e) := by
  refine (unfold_apply _ shapeCasts_S64x49x49_S8x8x49x49 tb h n m).trans ?_
  refine (Ideal.matmul_constant_zero_apply dot_S64x49x64_S64x49x64_S64x49x49_2_2_1_1_0_0 none _ _ (ix3 (fold8 tb h) n m)).trans ?_
  rw [← Equiv.sum_comp (contrEquiv1 dot_S64x49x64_S64x49x64_S64x49x49_2_2_1_1_0_0 64 rfl rfl).symm]
  refine Finset.sum_congr rfl fun e _ => ?_
  have hk := contrEquiv1_symm_val dot_S64x49x64_S64x49x64_S64x49x49_2_2_1_1_0_0 64 rfl rfl e
  have el : dot_S64x49x64_S64x49x64_S64x49x49_2_2_1_1_0_0.lhsIdx (ix3 (fold8 tb h) n m) ((contrEquiv1 dot_S64x49x64_S64x49x64_S64x49x49_2_2_1_1_0_0 64 rfl rfl).symm e) = ix3 (fold8 tb h) n e :=
    funext fun c => Fin.ext (by
      match c with
      | ⟨0, _⟩ => exact qk_lhs_0 _ _
      | ⟨1, _⟩ => exact qk_lhs_1 _ _
      | ⟨2, _⟩ => exact (qk_lhs_2 _ _).trans hk)
  have er : dot_S64x49x64_S64x49x64_S64x49x49_2_2_1_1_0_0.rhsIdx (ix3 (fold8 tb h) n m) ((contrEquiv1 dot_S64x49x64_S64x49x64_S64x49x49_2_2_1_1_0_0 64 rfl rfl).symm e) = ix3 (fold8 tb h) m e :=
    funext fun c => Fin.ext (by
      match c with
      | ⟨0, _⟩ => exact qk_rhs_0 _ _
      | ⟨1, _⟩ => exact qk_rhs_1 _ _
      | ⟨2, _⟩ => exact (qk_rhs_2 _ _).trans hk)
  rw [el, er, fold_apply a shapeCasts_S8x8x49x64_S64x49x64 tb h n e, fold_apply b shapeCasts_S8x8x49x64_S64x49x64 tb h m e]

/-! ## Weights against values: the keys are contracted

At output entry i = (E, n, d) and contraction coordinate q the left operand is read at (E, n, q) and the right at
(E, q, d): the key is the weights' last coordinate and the values' middle one. -/

theorem pv_lhs_0 (i : S64x49x64.Idx) (q : dot_S64x49x49_S64x49x64_S64x49x64_2_1_1_2_0_0.contr.Idx) :
    (dot_S64x49x49_S64x49x64_S64x49x64_2_1_1_2_0_0.lhsIdx i q 0).val = (i 0).val := by
  unfold DotDims.lhsIdx
  rw [dif_pos (show (0 : Fin S64x49x49.rank) ∈ dot_S64x49x49_S64x49x64_S64x49x64_2_1_1_2_0_0.lhsBatch by decide)]
  rfl

theorem pv_lhs_1 (i : S64x49x64.Idx) (q : dot_S64x49x49_S64x49x64_S64x49x64_2_1_1_2_0_0.contr.Idx) :
    (dot_S64x49x49_S64x49x64_S64x49x64_2_1_1_2_0_0.lhsIdx i q 1).val = (i 1).val := by
  unfold DotDims.lhsIdx
  rw [dif_neg (show ¬(1 : Fin S64x49x49.rank) ∈ dot_S64x49x49_S64x49x64_S64x49x64_2_1_1_2_0_0.lhsBatch by decide),
    dif_pos (show (1 : Fin S64x49x49.rank) ∈ dot_S64x49x49_S64x49x64_S64x49x64_2_1_1_2_0_0.lhsNonContracting by decide)]
  rfl

theorem pv_lhs_2 (i : S64x49x64.Idx) (q : dot_S64x49x49_S64x49x64_S64x49x64_2_1_1_2_0_0.contr.Idx) :
    (dot_S64x49x49_S64x49x64_S64x49x64_2_1_1_2_0_0.lhsIdx i q 2).val = (q ⟨0, by decide⟩).val :=
  dot_S64x49x49_S64x49x64_S64x49x64_2_1_1_2_0_0.lhsIdx_val_of_single rfl i q

theorem pv_rhs_0 (i : S64x49x64.Idx) (q : dot_S64x49x49_S64x49x64_S64x49x64_2_1_1_2_0_0.contr.Idx) :
    (dot_S64x49x49_S64x49x64_S64x49x64_2_1_1_2_0_0.rhsIdx i q 0).val = (i 0).val := by
  unfold DotDims.rhsIdx
  rw [dif_pos (show (0 : Fin S64x49x64.rank) ∈ dot_S64x49x49_S64x49x64_S64x49x64_2_1_1_2_0_0.rhsBatch by decide)]
  rfl

theorem pv_rhs_1 (i : S64x49x64.Idx) (q : dot_S64x49x49_S64x49x64_S64x49x64_2_1_1_2_0_0.contr.Idx) :
    (dot_S64x49x49_S64x49x64_S64x49x64_2_1_1_2_0_0.rhsIdx i q 1).val = (q ⟨0, by decide⟩).val :=
  dot_S64x49x49_S64x49x64_S64x49x64_2_1_1_2_0_0.rhsIdx_val_of_single rfl i q

theorem pv_rhs_2 (i : S64x49x64.Idx) (q : dot_S64x49x49_S64x49x64_S64x49x64_2_1_1_2_0_0.contr.Idx) :
    (dot_S64x49x49_S64x49x64_S64x49x64_2_1_1_2_0_0.rhsIdx i q 2).val = (i 2).val := by
  unfold DotDims.rhsIdx
  rw [dif_neg (show ¬(2 : Fin S64x49x64.rank) ∈ dot_S64x49x49_S64x49x64_S64x49x64_2_1_1_2_0_0.rhsBatch by decide),
    dif_pos (show (2 : Fin S64x49x64.rank) ∈ dot_S64x49x49_S64x49x64_S64x49x64_2_1_1_2_0_0.rhsNonContracting by decide)]
  rfl

/-- The output's product: entry (tb, h, n, d) is the inner product over the keys of weight row (tb, h, n) and
    column d of the values of (tb, h). -/
theorem pv_apply (a : FVec Ideal S8x8x49x49 .bf16) (v : FVec Ideal S8x8x49x64 .bf16) (tb h : Fin 8) (n : Fin 49) (d : Fin 64) :
    shapeCast S8x8x49x64
        (matmul dot_S64x49x49_S64x49x64_S64x49x64_2_1_1_2_0_0 none
          (shapeCast S64x49x49 a shapeCasts_S8x8x49x49_S64x49x49) (shapeCast S64x49x64 v shapeCasts_S8x8x49x64_S64x49x64)
          (constant (F := Ideal) S64x49x64 .f32 0x00000000#32))
        shapeCasts_S64x49x64_S8x8x49x64 (ix4 tb h n d)
      = ∑ m : Fin 49, a (ix4 tb h n m) * v (ix4 tb h m d) := by
  refine (unfold_apply _ shapeCasts_S64x49x64_S8x8x49x64 tb h n d).trans ?_
  refine (Ideal.matmul_constant_zero_apply dot_S64x49x49_S64x49x64_S64x49x64_2_1_1_2_0_0 none _ _ (ix3 (fold8 tb h) n d)).trans ?_
  rw [← Equiv.sum_comp (contrEquiv1 dot_S64x49x49_S64x49x64_S64x49x64_2_1_1_2_0_0 49 rfl rfl).symm]
  refine Finset.sum_congr rfl fun m _ => ?_
  have hk := contrEquiv1_symm_val dot_S64x49x49_S64x49x64_S64x49x64_2_1_1_2_0_0 49 rfl rfl m
  have el : dot_S64x49x49_S64x49x64_S64x49x64_2_1_1_2_0_0.lhsIdx (ix3 (fold8 tb h) n d) ((contrEquiv1 dot_S64x49x49_S64x49x64_S64x49x64_2_1_1_2_0_0 49 rfl rfl).symm m) = ix3 (fold8 tb h) n m :=
    funext fun c => Fin.ext (by
      match c with
      | ⟨0, _⟩ => exact pv_lhs_0 _ _
      | ⟨1, _⟩ => exact pv_lhs_1 _ _
      | ⟨2, _⟩ => exact (pv_lhs_2 _ _).trans hk)
  have er : dot_S64x49x49_S64x49x64_S64x49x64_2_1_1_2_0_0.rhsIdx (ix3 (fold8 tb h) n d) ((contrEquiv1 dot_S64x49x49_S64x49x64_S64x49x64_2_1_1_2_0_0 49 rfl rfl).symm m) = ix3 (fold8 tb h) m d :=
    funext fun c => Fin.ext (by
      match c with
      | ⟨0, _⟩ => exact pv_rhs_0 _ _
      | ⟨1, _⟩ => exact (pv_rhs_1 _ _).trans hk
      | ⟨2, _⟩ => exact pv_rhs_2 _ _)
  rw [el, er, fold_apply a shapeCasts_S8x8x49x49_S64x49x49 tb h n m, fold_apply v shapeCasts_S8x8x49x64_S64x49x64 tb h m d]

end Cert.Attention

end
-- ==== Proof.BlockValue.lean ====
/-
  What one grid step computes, entry by entry.

  The body's arithmetic is cut into four stages, each a function of whole blocks: the scores (the query–key
  product plus the positional bias repeated over the batch entries plus the mask repeated over the heads), the
  unnormalised weights e^(s − row maximum), the weights (divided by their row sum), and the output (the
  weights–values product). Read at entry (tb, h, n, ·) each stage depends only on row (tb, h, n) of the stage
  before it, and their composition is `Attention.attnRow` of that row's scores against a column of the values:
  the block computes softmax attention for its 8 batch entries, one (batch entry, head, query row) at a time.
  The narrowings to bf16 in front of the two products are the identity on the extended reals.
-/
import proofs.«159746_j25056839204932_1_alg».proof.Proof.Gen.KernelIdeal.Skeleton
import proofs.«159746_j25056839204932_1_alg».proof.Proof.Attention
import proofs.«159746_j25056839204932_1_alg».proof.Proof.BlockProducts

noncomputable section

namespace Cert.Attention

open Idealize.ShloMosaic Idealize.ShloMosaic.ValueIdx Cert.KernelIdeal Cert.KernelIdeal.Gen

/-! ## The two reductions along the keys, at a row -/

/-- The entry of the scores' block that the reduction visits for row (tb, h, n) and key m is (tb, h, n, m). -/
theorem lift_row (tb h : Fin 8) (n m : Fin 49) :
    reduces_S8x8x49x49_S8x8x49.lift (ix3 tb h n) m = ix4 tb h n m := by
  funext c
  refine Fin.ext ?_
  match c with
  | ⟨0, _⟩ => rfl
  | ⟨1, _⟩ => rfl
  | ⟨2, _⟩ => rfl
  | ⟨3, _⟩ => rfl

/-- A row's maximum: the fold of `max` from −∞ over the row's 49 entries. -/
theorem blockRowMax_apply (x : FVec Ideal S8x8x49x49 .f32) (tb h : Fin 8) (n : Fin 49) :
    multiReduction .maximumf [3] S8x8x49 x 0xFF800000#32 reduces_S8x8x49x49_S8x8x49 (.inl rfl) rfl (ix3 tb h n)
      = (Finset.univ : Finset (Fin 49)).fold max negInf (fun m => x (ix4 tb h n m)) := by
  refine (Ideal.multiReduction_maximumf_single x 0xFF800000#32 reduces_S8x8x49x49_S8x8x49 (.inl rfl) rfl (ix3 tb h n)).trans ?_
  show (Finset.univ : Finset (Fin 49)).fold max negInf (fun m => x (reduces_S8x8x49x49_S8x8x49.lift (ix3 tb h n) m)) = _
  exact congrArg (fun f => (Finset.univ : Finset (Fin 49)).fold max negInf f)
    (funext fun m => congrArg x (lift_row tb h n m))

/-- A row's sum: the sum of the row's 49 entries. -/
theorem blockRowSum_apply (x : FVec Ideal S8x8x49x49 .f32) (tb h : Fin 8) (n : Fin 49) :
    multiReduction .add [3] S8x8x49 x 0x00000000#32 reduces_S8x8x49x49_S8x8x49 (.inl rfl) rfl (ix3 tb h n)
      = ∑ m : Fin 49, x (ix4 tb h n m) := by
  refine (Ideal.multiReduction_add_single x 0x00000000#32 reduces_S8x8x49x49_S8x8x49 (.inl rfl) rfl (ix3 tb h n)).trans ?_
  show ∑ m : Fin 49, x (reduces_S8x8x49x49_S8x8x49.lift (ix3 tb h n) m) = _
  exact Finset.sum_congr rfl fun m _ => congrArg x (lift_row tb h n m)

/-! ## The body's arithmetic in four stages -/

section Stages
variable {F : FTy → Type} [FloatOps F]

/-- The scores of the block: queries against keys, plus the positional bias, plus the mask. -/
def blockScores (q k : Vec F S8x8x49x64 .f32) (p w : Vec F S8x49x49 .f32) : FVec F S8x8x49x49 .f32 :=
  addf
    (addf
      (shapeCast S8x8x49x49
        (matmul dot_S64x49x64_S64x49x64_S64x49x49_2_2_1_1_0_0 none
          (shapeCast S64x49x64 (truncf .bf16 q bitsLt_bf16_f32) shapeCasts_S8x8x49x64_S64x49x64)
          (shapeCast S64x49x64 (truncf .bf16 k bitsLt_bf16_f32) shapeCasts_S8x8x49x64_S64x49x64)
          (constant S64x49x49 .f32 0x00000000#32))
        shapeCasts_S64x49x49_S8x8x49x49)
      (broadcastTo S8x8x49x49 (shapeCast S1x8x49x49 p shapeCasts_S8x49x49_S1x8x49x49) broadcasts_S1x8x49x49_S8x8x49x49))
    (broadcastTo S8x8x49x49 (shapeCast S8x1x49x49 w shapeCasts_S8x49x49_S8x1x49x49) broadcasts_S8x1x49x49_S8x8x49x49)

/-- The unnormalised weights: e^(score − row maximum), the maximum repeated along the keys. -/
def blockExp (s : FVec F S8x8x49x49 .f32) : FVec F S8x8x49x49 .f32 :=
  exp
    (subf s
      (broadcastTo S8x8x49x49
        (shapeCast S8x8x49x1
          (maximumf (broadcast S8x8x49 (Scalar.ofBits .f32 0xFF800000#32))
            (multiReduction .maximumf [3] S8x8x49 s 0xFF800000#32 reduces_S8x8x49x49_S8x8x49 (.inl rfl) rfl))
          shapeCasts_S8x8x49_S8x8x49x1)
        broadcasts_S8x8x49x1_S8x8x49x49))

/-- The weights: the unnormalised ones divided by their row sum, narrowed for the second product. -/
def blockWeights (s : FVec F S8x8x49x49 .f32) : FVec F S8x8x49x49 .bf16 :=
  truncf .bf16
    (divf (blockExp s)
      (broadcastTo S8x8x49x49
        (shapeCast S8x8x49x1
          (multiReduction .add [3] S8x8x49 (blockExp s) 0x00000000#32 reduces_S8x8x49x49_S8x8x49 (.inl rfl) rfl)
          shapeCasts_S8x8x49_S8x8x49x1)
        broadcasts_S8x8x49x1_S8x8x49x49))
    bitsLt_bf16_f32

/-- The output of the block: weights against values. -/
def blockOut (a : FVec F S8x8x49x49 .bf16) (v : Vec F S8x8x49x64 .f32) : FVec F S8x8x49x64 .f32 :=
  shapeCast S8x8x49x64
    (matmul dot_S64x49x49_S64x49x64_S64x49x64_2_1_1_2_0_0 none
      (shapeCast S64x49x49 a shapeCasts_S8x8x49x49_S64x49x49)
      (shapeCast S64x49x64 (truncf .bf16 v bitsLt_bf16_f32) shapeCasts_S8x8x49x64_S64x49x64)
      (constant S64x49x64 .f32 0x00000000#32))
    shapeCasts_S64x49x64_S8x8x49x64

/-- The body's one stored value is the four stages composed. -/
theorem payload_eq (q k v : Vec F S8x8x49x64 .f32) (p w : Vec F S8x49x49 .f32) :
    k0_pay1 q k v p w = blockOut (blockWeights (blockScores q k p w)) v := rfl

end Stages

/-! ## Each stage at an entry -/

/-- The score at (tb, h, n, m): the features' inner product of query row (tb, h, n) and key row (tb, h, m), plus the
    positional bias of head h at (n, m), plus the mask of batch entry tb at (n, m). -/
theorem blockScores_apply (q k : Vec Ideal S8x8x49x64 .f32) (p w : Vec Ideal S8x49x49 .f32) (tb h : Fin 8) (n m : Fin 49) :
    blockScores q k p w (ix4 tb h n m)
      = scoreRow (fun e => q (ix4 tb h n e)) (fun m' e => k (ix4 tb h m' e)) (fun m' => p (ix3 h n m')) (fun m' => w (ix3 tb n m')) m := by
  unfold blockScores scoreRow
  refine congrArg₂ (· + ·) (congrArg₂ (· + ·) ?_ ?_) ?_
  · exact qk_apply (truncf .bf16 q bitsLt_bf16_f32) (truncf .bf16 k bitsLt_bf16_f32) tb h n m
  · exact perHead_apply p shapeCasts_S8x49x49_S1x8x49x49 broadcasts_S1x8x49x49_S8x8x49x49 tb h n m
  · exact perBatch_apply w shapeCasts_S8x49x49_S8x1x49x49 broadcasts_S8x1x49x49_S8x8x49x49 tb h n m

/-- The unnormalised weight at (tb, h, n, m) is `rowExp` of row (tb, h, n) of the scores at m. -/
theorem blockExp_apply (s : FVec Ideal S8x8x49x49 .f32) (tb h : Fin 8) (n m : Fin 49) :
    blockExp s (ix4 tb h n m) = rowExp (fun m' => s (ix4 tb h n m')) m := by
  unfold blockExp rowExp rowMax
  refine congrArg (fun M => Ideal.exp (s (ix4 tb h n m) - M)) ?_
  refine (perRow_apply _ shapeCasts_S8x8x49_S8x8x49x1 broadcasts_S8x8x49x1_S8x8x49x49 tb h n m).trans ?_
  exact congrArg (fun r => max negInf r) (blockRowMax_apply s tb h n)

/-- The weight at (tb, h, n, m) is the softmax weight of key m in row (tb, h, n) of the scores. -/
theorem blockWeights_apply (s : FVec Ideal S8x8x49x49 .f32) (tb h : Fin 8) (n m : Fin 49) :
    blockWeights s (ix4 tb h n m) = rowSoftmax (fun m' => s (ix4 tb h n m')) m := by
  unfold blockWeights rowSoftmax
  refine congrArg₂ Ideal.div (blockExp_apply s tb h n m) ?_
  refine (perRow_apply _ shapeCasts_S8x8x49_S8x8x49x1 broadcasts_S8x8x49x1_S8x8x49x49 tb h n m).trans ?_
  refine (blockRowSum_apply (blockExp s) tb h n).trans ?_
  exact Finset.sum_congr rfl fun m' _ => blockExp_apply s tb h n m'

/-- The output at (tb, h, n, d): the keys' inner product of weight row (tb, h, n) and column d of the values of (tb, h). -/
theorem blockOut_apply (a : FVec Ideal S8x8x49x49 .bf16) (v : Vec Ideal S8x8x49x64 .f32) (tb h : Fin 8) (n : Fin 49) (d : Fin 64) :
    blockOut a v (ix4 tb h n d) = ∑ m : Fin 49, a (ix4 tb h n m) * v (ix4 tb h m d) := by
  unfold blockOut
  exact pv_apply a (truncf .bf16 v bitsLt_bf16_f32) tb h n d

/-! ## The block computes attention -/

/-- THE BLOCK'S VALUE at (tb, h, n, d): softmax attention of query row (tb, h, n) against the keys and values of
    (tb, h), with head h's positional bias and batch entry tb's mask. -/
theorem payload_apply (q k v : Vec Ideal S8x8x49x64 .f32) (p w : Vec Ideal S8x49x49 .f32) (tb h : Fin 8) (n : Fin 49) (d : Fin 64) :
    k0_pay1 q k v p w (ix4 tb h n d)
      = attnRow
          (scoreRow (fun e => q (ix4 tb h n e)) (fun m e => k (ix4 tb h m e)) (fun m => p (ix3 h n m)) (fun m => w (ix3 tb n m)))
          (fun m => v (ix4 tb h m d)) := by
  rw [payload_eq]
  refine (blockOut_apply _ v tb h n d).trans ?_
  unfold attnRow
  refine Finset.sum_congr rfl fun m _ => ?_
  refine congrArg (fun a => a * v (ix4 tb h m d)) ?_
  refine (blockWeights_apply _ tb h n m).trans ?_
  exact congrArg (fun s => rowSoftmax s m) (funext fun m' => blockScores_apply q k p w tb h n m')

end Cert.Attention

end
-- ==== Proof.KernelArray.lean ====
/-
  From the blocks to the whole result array.

  Grid step t (of 256) stages batch entries 8t … 8t + 7 of the queries, keys, values and mask, the whole
  positional bias, and writes back batch entries 8t … 8t + 7 of the result; all other axes are staged whole. So
  entry (tb, h, n, e) of a staged block is entry (8t + tb, h, n, e) of its array, and what step t writes back is
  block t of `Attention.attention` of the five argument arrays: the block computes attention row by row
  (`payload_apply`), and a row of the block is the same row of the arrays. Every batch entry b lies in step b / 8's
  block, so the blocks cover the result array and it ends holding `attention` everywhere.
-/
import proofs.«159746_j25056839204932_1_alg».proof.Proof.Gen.KernelIdeal.Value
import proofs.«159746_j25056839204932_1_alg».proof.Proof.BlockValue

set_option maxRecDepth 16384

noncomputable section

namespace Cert.Attention

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-! ## The index maps, decided over the 256 grid steps -/

/-- Queries: block index (t, 0, 0, 0). -/
theorem idx_q : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
/-- Keys: block index (t, 0, 0, 0). -/
theorem idx_k : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)
/-- Values: block index (t, 0, 0, 0). -/
theorem idx_v : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)
/-- Positional bias: block index (0, 0, 0), the whole array at every step. -/
theorem idx_p : ∀ t : Fin cfg0.N, win0_3.index t (0 : Fin 3) = 0 ∧ win0_3.index t (1 : Fin 3) = 0
    ∧ win0_3.index t (2 : Fin 3) = 0 :=
  (by decide +kernel : ∀ t : Fin grid0.N, _)
/-- Mask: block index (t, 0, 0). -/
theorem idx_w : ∀ t : Fin cfg0.N, win0_4.index t (0 : Fin 3) = t.val ∧ win0_4.index t (1 : Fin 3) = 0
    ∧ win0_4.index t (2 : Fin 3) = 0 :=
  (by decide +kernel : ∀ t : Fin grid0.N, _)
/-- Result: block index (t, 0, 0, 0). -/
theorem idx_o : ∀ t : Fin cfg0.N, win0_5.index t (0 : Fin 4) = t.val ∧ win0_5.index t (1 : Fin 4) = 0
    ∧ win0_5.index t (2 : Fin 4) = 0 ∧ win0_5.index t (3 : Fin 4) = 0 :=
  (by decide +kernel : ∀ t : Fin grid0.N, _)

/-- Batch entry 8t + tb of the arrays: entry tb of step t's block. -/
abbrev batchOf (t : Fin cfg0.N) (tb : Fin 8) : Fin 2048 :=
  ⟨t.val * 8 + tb.val, by have h := t.isLt; have hN : cfg0.N = 256 := N_0; omega⟩

/-! ## A block's entry is its array's entry -/

theorem emb_q (t : Fin cfg0.N) (tb h : Fin 8) (n : Fin 49) (e : Fin 64) :
    ((cfg0.win 0).blk t).view.emb (ix4 tb h n e) = ix4 (batchOf t tb) h n e := by
  obtain ⟨e0, e1, e2, e3⟩ := idx_q t
  funext a; apply Fin.ext
  match a with
  | ⟨0, _⟩ => show win0_0.index t (0 : Fin 4) * 8 + 1 * tb.val = t.val * 8 + tb.val; omega
  | ⟨1, _⟩ => show win0_0.index t (1 : Fin 4) * 8 + 1 * h.val = h.val; omega
  | ⟨2, _⟩ => show win0_0.index t (2 : Fin 4) * 49 + 1 * n.val = n.val; omega
  | ⟨3, _⟩ => show win0_0.index t (3 : Fin 4) * 64 + 1 * e.val = e.val; omega

theorem emb_k (t : Fin cfg0.N) (tb h : Fin 8) (n : Fin 49) (e : Fin 64) :
    ((cfg0.win 1).blk t).view.emb (ix4 tb h n e) = ix4 (batchOf t tb) h n e := by
  obtain ⟨e0, e1, e2, e3⟩ := idx_k t
  funext a; apply Fin.ext
  match a with
  | ⟨0, _⟩ => show win0_1.index t (0 : Fin 4) * 8 + 1 * tb.val = t.val * 8 + tb.val; omega
  | ⟨1, _⟩ => show win0_1.index t (1 : Fin 4) * 8 + 1 * h.val = h.val; omega
  | ⟨2, _⟩ => show win0_1.index t (2 : Fin 4) * 49 + 1 * n.val = n.val; omega
  | ⟨3, _⟩ => show win0_1.index t (3 : Fin 4) * 64 + 1 * e.val = e.val; omega

theorem emb_v (t : Fin cfg0.N) (tb h : Fin 8) (n : Fin 49) (e : Fin 64) :
    ((cfg0.win 2).blk t).view.emb (ix4 tb h n e) = ix4 (batchOf t tb) h n e := by
  obtain ⟨e0, e1, e2, e3⟩ := idx_v t
  funext a; apply Fin.ext
  match a with
  | ⟨0, _⟩ => show win0_2.index t (0 : Fin 4) * 8 + 1 * tb.val = t.val * 8 + tb.val; omega
  | ⟨1, _⟩ => show win0_2.index t (1 : Fin 4) * 8 + 1 * h.val = h.val; omega
  | ⟨2, _⟩ => show win0_2.index t (2 : Fin 4) * 49 + 1 * n.val = n.val; omega
  | ⟨3, _⟩ => show win0_2.index t (3 : Fin 4) * 64 + 1 * e.val = e.val; omega

theorem emb_p (t : Fin cfg0.N) (h : Fin 8) (n k : Fin 49) :
    ((cfg0.win 3).blk t).view.emb (ix3 h n k) = ix3 h n k := by
  obtain ⟨e0, e1, e2⟩ := idx_p t
  funext a; apply Fin.ext
  match a with
  | ⟨0, _⟩ => show win0_3.index t (0 : Fin 3) * 8 + 1 * h.val = h.val; omega
  | ⟨1, _⟩ => show win0_3.index t (1 : Fin 3) * 49 + 1 * n.val = n.val; omega
  | ⟨2, _⟩ => show win0_3.index t (2 : Fin 3) * 49 + 1 * k.val = k.val; omega

theorem emb_w (t : Fin cfg0.N) (tb : Fin 8) (n k : Fin 49) :
    ((cfg0.win 4).blk t).view.emb (ix3 tb n k) = ix3 (batchOf t tb) n k := by
  obtain ⟨e0, e1, e2⟩ := idx_w t
  funext a; apply Fin.ext
  match a with
  | ⟨0, _⟩ => show win0_4.index t (0 : Fin 3) * 8 + 1 * tb.val = t.val * 8 + tb.val; omega
  | ⟨1, _⟩ => show win0_4.index t (1 : Fin 3) * 49 + 1 * n.val = n.val; omega
  | ⟨2, _⟩ => show win0_4.index t (2 : Fin 3) * 49 + 1 * k.val = k.val; omega

theorem emb_o (t : Fin cfg0.N) (tb h : Fin 8) (n : Fin 49) (e : Fin 64) :
    ((cfg0.win 5).blk t).view.emb (ix4 tb h n e) = ix4 (batchOf t tb) h n e := by
  obtain ⟨e0, e1, e2, e3⟩ := idx_o t
  funext a; apply Fin.ext
  match a with
  | ⟨0, _⟩ => show win0_5.index t (0 : Fin 4) * 8 + 1 * tb.val = t.val * 8 + tb.val; omega
  | ⟨1, _⟩ => show win0_5.index t (1 : Fin 4) * 8 + 1 * h.val = h.val; omega
  | ⟨2, _⟩ => show win0_5.index t (2 : Fin 4) * 49 + 1 * n.val = n.val; omega
  | ⟨3, _⟩ => show win0_5.index t (3 : Fin 4) * 64 + 1 * e.val = e.val; omega

/-- Step t's block of the queries at (tb, h, n, e) is the queries at (8t + tb, h, n, e). -/
theorem read_q (c : Dev nD) (t : Fin cfg0.N) (tb h : Fin 8) (n : Fin 49) (e : Fin 64) :
    iblk m c 0 t (ix4 tb h n e) = V m c main_arg0 (ix4 (batchOf t tb) h n e) := by
  show V m c main_arg0 (((cfg0.win 0).blk t).view.emb (ix4 tb h n e)) = _
  rw [emb_q]
/-- … of the keys. -/
theorem read_k (c : Dev nD) (t : Fin cfg0.N) (tb h : Fin 8) (n : Fin 49) (e : Fin 64) :
    iblk m c 1 t (ix4 tb h n e) = V m c main_arg1 (ix4 (batchOf t tb) h n e) := by
  show V m c main_arg1 (((cfg0.win 1).blk t).view.emb (ix4 tb h n e)) = _
  rw [emb_k]
/-- … of the values. -/
theorem read_v (c : Dev nD) (t : Fin cfg0.N) (tb h : Fin 8) (n : Fin 49) (e : Fin 64) :
    iblk m c 2 t (ix4 tb h n e) = V m c main_arg2 (ix4 (batchOf t tb) h n e) := by
  show V m c main_arg2 (((cfg0.win 2).blk t).view.emb (ix4 tb h n e)) = _
  rw [emb_v]
/-- The positional bias is staged whole. -/
theorem read_p (c : Dev nD) (t : Fin cfg0.N) (h : Fin 8) (n k : Fin 49) :
    iblk m c 3 t (ix3 h n k) = V m c main_arg3 (ix3 h n k) := by
  show V m c main_arg3 (((cfg0.win 3).blk t).view.emb (ix3 h n k)) = _
  rw [emb_p]
/-- Step t's block of the mask at (tb, n, k) is the mask at (8t + tb, n, k). -/
theorem read_w (c : Dev nD) (t : Fin cfg0.N) (tb : Fin 8) (n k : Fin 49) :
    iblk m c 4 t (ix3 tb n k) = V m c main_arg4 (ix3 (batchOf t tb) n k) := by
  show V m c main_arg4 (((cfg0.win 4).blk t).view.emb (ix3 tb n k)) = _
  rw [emb_w]

/-! ## What a step writes back, the cover, and the array after the run -/

/-- WHAT STEP t WRITES BACK is block t of `attention` of the argument arrays as the region finds them. -/
theorem flushed_eq (c : Dev nD) (t : Fin cfg0.N) :
    (dats m 0 c).flushed 5 t = ((cfg0.win 5).blk t).view.read (Elt Ideal)
      (attention (V m c main_arg0) (V m c main_arg1) (V m c main_arg2) (V m c main_arg3) (V m c main_arg4)) := by
  rw [Cert.KernelIdeal.Value.flushed5]
  unfold out0_5
  rw [View.canon_unit_zero zeros4]
  simp only [View.ld_unit_zero (S := S8x8x49x64) zeros4, View.ld_unit_zero (S := S8x49x49) zeros3]
  funext y
  obtain ⟨tb, h, n, d, rfl⟩ : ∃ (tb h : Fin 8) (n : Fin 49) (d : Fin 64), y = ix4 tb h n d :=
    ⟨y 0, y 1, y 2, y 3, eq_ix4 y⟩
  show k0_pay1 (iblk m c 0 t) (iblk m c 1 t) (iblk m c 2 t) (iblk m c 3 t) (iblk m c 4 t) (ix4 tb h n d)
    = attention (V m c main_arg0) (V m c main_arg1) (V m c main_arg2) (V m c main_arg3) (V m c main_arg4)
        (((cfg0.win 5).blk t).view.emb (ix4 tb h n d))
  rw [emb_o, attention_apply]
  refine (payload_apply (iblk m c 0 t) (iblk m c 1 t) (iblk m c 2 t) (iblk m c 3 t) (iblk m c 4 t) tb h n d).trans ?_
  simp only [read_q, read_k, read_v, read_p, read_w]

/-- An index of the result array is in step t's block iff each coordinate is in the block's range on its axis. -/
theorem mem_blk (t : Fin cfg0.N) (i : S2048x8x49x64.Idx) :
    i ∈ ((cfg0.win 5).blk t).view.set ↔ ∀ a : Fin 4, win0_5.index t a * S8x8x49x64.size a ≤ (i a).val
      ∧ (i a).val < win0_5.index t a * S8x8x49x64.size a + S8x8x49x64.size a := by
  show i ∈ ((View.whole main_v0).slice (win0_5.rect t)).set ↔ _
  rw [View.set_slice_whole, Rect.mem_set_unit]
  exact Iff.rfl

/-- Batch entry b lies in step b / 8's block: the blocks cover the result array. -/
theorem cover (i : S2048x8x49x64.Idx) :
    ∃ t : Fin cfg0.N, (cfg0.win 5).flush t = true ∧ i ∈ ((cfg0.win 5).blk t).view.set := by
  have hi0 : (i 0).val < 2048 := (i 0).isLt
  have hi1 : (i 1).val < 8 := (i 1).isLt
  have hi2 : (i 2).val < 49 := (i 2).isLt
  have hi3 : (i 3).val < 64 := (i 3).isLt
  have hN : grid0.N = 256 := N_0
  obtain ⟨t, ht⟩ : ∃ t : Fin cfg0.N, t.val = (i 0).val / 8 :=
    ⟨⟨(i 0).val / 8, by show (i 0).val / 8 < grid0.N; omega⟩, rfl⟩
  obtain ⟨e0, e1, e2, e3⟩ := idx_o t
  refine ⟨t, flush0_5 t, ?_⟩
  rw [mem_blk]
  intro a
  match a with
  | ⟨0, _⟩ =>
    show win0_5.index t (0 : Fin 4) * 8 ≤ (i 0).val ∧ (i 0).val < win0_5.index t (0 : Fin 4) * 8 + 8
    omega
  | ⟨1, _⟩ =>
    show win0_5.index t (1 : Fin 4) * 8 ≤ (i 1).val ∧ (i 1).val < win0_5.index t (1 : Fin 4) * 8 + 8
    omega
  | ⟨2, _⟩ =>
    show win0_5.index t (2 : Fin 4) * 49 ≤ (i 2).val ∧ (i 2).val < win0_5.index t (2 : Fin 4) * 49 + 49
    omega
  | ⟨3, _⟩ =>
    show win0_5.index t (3 : Fin 4) * 64 ≤ (i 3).val ∧ (i 3).val < win0_5.index t (3 : Fin 4) * 64 + 64
    omega

/-- THE RESULT ARRAY after the run is `attention` of the argument arrays as launched. -/
theorem final (c : Dev nD) :
    (dats m 0 c).arrAt 5 cfg0.N
      = attention (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => flushed_eq m c t) cover

/-- The kernel's run: every weakly fair execution terminates with the result array at `attention` of the argument
    arrays and the argument arrays unchanged. -/
theorem kernel_run : θ_run defs (onTc (τ := τ) (main (F := Ideal))) ⟨m, fun _ => 0, ρ⟩ fun r => ∀ c : Dev nD,
      r.2.mem ((c : Thread nD τ).loc main_v0)
        = attention (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Attention

end
-- ==== Proof.ReferenceValue.lean ====
/-
  The reference computes `Attention.attention`.

  The reference is written on whole arrays: one batched product of the queries with the keys over the 64
  features, the positional bias repeated over the 2048 batch entries and the mask over the 8 heads added to it,
  a softmax along the last axis, and one batched product of the weights with the values over the 49 keys. Read
  at entry (b, h, n, d), stage by stage from the result back to the arguments, every stage depends only on
  query row (b, h, n): the scores are `scoreRow` of that row, the row maximum and the row sum are taken over its
  49 keys, and the result is `attnRow` of the scores against column d of the values of (b, h). The host's row
  maximum is a fold of `max` in some order; `max` commutes and associates, so it is the fold over the 49 keys.
-/
import proofs.«159746_j25056839204932_1_alg».proof.Proof.Gen.ReferenceIdeal.Read
import proofs.«159746_j25056839204932_1_alg».proof.Proof.Attention

noncomputable section

namespace Cert.Attention

open Idealize.ShloMosaic Idealize.ShloMosaic.ValueIdx Cert.ReferenceIdeal Cert.ReferenceIdeal.Gen Cert.ReferenceIdeal.Read

variable (Q K V : (⟨S2048x8x49x64, .f32⟩ : BufTy).Contents (Elt Ideal)) (P : (⟨S8x49x49, .f32⟩ : BufTy).Contents (Elt Ideal))
  (W : (⟨S2048x49x49, .f32⟩ : BufTy).Contents (Elt Ideal))

/-- The 49 scores of query row (b, h, n), from the argument arrays. -/
abbrev refRow (b : Fin 2048) (h : Fin 8) (n : Fin 49) : Fin 49 → EReal :=
  scoreRow (fun e => Q (ix4 b h n e)) (fun m e => K (ix4 b h m e)) (fun m => P (ix3 h n m)) (fun m => W (ix3 b n m))

/-- The scores' array at (b, h, n, m) is score m of row (b, h, n). -/
theorem ref_score (b : Fin 2048) (h : Fin 8) (n m : Fin 49) :
    val_main_v6 (F := Ideal) Q K P W (ix4 b h n m) = refRow Q K P W b h n m := by
  rw [val_main_v6_apply, val_main_v3_apply, val_main_v0_apply, val_main_v2_apply, val_main_v1_apply, val_main_v5_apply,
    val_main_v4_apply]
  show (∑ e : Fin 64, Q (lidx_main_v0 (ix4 b h n m) e) * K (ridx_main_v0 (ix4 b h n m) e))
      + P (idx_main_v1 (idx_main_v2 (ix4 b h n m))) + W (idx_main_v4 (idx_main_v5 (ix4 b h n m)))
    = (∑ e : Fin 64, Q (ix4 b h n e) * K (ix4 b h m e)) + P (ix3 h n m) + W (ix3 b n m)
  refine congrArg₂ (· + ·) (congrArg₂ (· + ·) (Finset.sum_congr rfl fun e _ => congrArg₂ (· * ·) (congrArg Q ?_) (congrArg K ?_))
    (congrArg P ?_)) (congrArg W ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The reduction along the keys, as a relation between the two shapes. -/
theorem keysReduce : S2048x8x49x49.Reduces [3] S2048x8x49 := by decide

/-- The entry the reduction visits for row (b, h, n) and key m is (b, h, n, m). -/
theorem ref_lift (b : Fin 2048) (h : Fin 8) (n m : Fin 49) : keysReduce.lift (ix3 b h n) m = ix4 b h n m := by
  funext c
  refine Fin.ext ?_
  match c with
  | ⟨0, _⟩ => rfl
  | ⟨1, _⟩ => rfl
  | ⟨2, _⟩ => rfl
  | ⟨3, _⟩ => rfl

/-- The host's row maximum from −∞: the fold of `max` over the row's 49 entries. -/
theorem ref_rowMax (x : (⟨S2048x8x49x49, .f32⟩ : BufTy).Contents (Elt Ideal)) (b : Fin 2048) (h : Fin 8) (n : Fin 49) :
    Host.reduce (FloatOps.maximumf (F := Ideal) (φ := .f32)) x (val_main_cst (F := Ideal)) reducesTo_S2048x8x49x49_S2048x8x49_d3 h_S_ (ix3 b h n)
      = (Finset.univ : Finset (Fin 49)).fold max negInf (fun m => x (ix4 b h n m)) := by
  refine (Host.reduce_eq_fold_single (FloatOps.maximumf (F := Ideal) (φ := .f32)) x _ reducesTo_S2048x8x49x49_S2048x8x49_d3 keysReduce h_S_ (ix3 b h n)).trans ?_
  show (Finset.univ : Finset (Fin 49)).fold max negInf (fun m => x (keysReduce.lift (ix3 b h n) m)) = _
  exact congrArg (fun f => (Finset.univ : Finset (Fin 49)).fold max negInf f)
    (funext fun m => congrArg x (ref_lift b h n m))

/-- The exponentials' array at (b, h, n, m) is the unnormalised weight of key m in row (b, h, n). -/
theorem ref_exp (b : Fin 2048) (h : Fin 8) (n m : Fin 49) :
    val_main_v13 (F := Ideal) Q K P W (ix4 b h n m) = rowExp (refRow Q K P W b h n) m := by
  rw [val_main_v13_apply, val_main_v12_apply, val_main_v11_apply, val_main_v10_apply, val_main_v9_apply, val_main_v8_apply,
    val_main_cst_0_apply]
  have hj : idx_main_v10 (idx_main_v11 (ix4 b h n m)) = ix3 b h n :=
    funext fun a => Fin.ext (by match a with | ⟨0, _⟩ => rfl | ⟨1, _⟩ => rfl | ⟨2, _⟩ => rfl)
  rw [hj]
  unfold val_main_v7 rowExp rowMax
  show Ideal.exp (val_main_v6 (F := Ideal) Q K P W (ix4 b h n m)
      - max negInf (Host.reduce (FloatOps.maximumf (F := Ideal) (φ := .f32)) (val_main_v6 (F := Ideal) Q K P W) (val_main_cst (F := Ideal))
          reducesTo_S2048x8x49x49_S2048x8x49_d3 h_S_ (ix3 b h n))) = _
  rw [ref_rowMax, ref_score]
  refine congrArg (fun f => Ideal.exp (refRow Q K P W b h n m - max negInf ((Finset.univ : Finset (Fin 49)).fold max negInf f)))
    (funext fun m' => ref_score Q K P W b h n m')

/-- The weights' array at (b, h, n, m) is the softmax weight of key m in row (b, h, n). -/
theorem ref_weights (b : Fin 2048) (h : Fin 8) (n m : Fin 49) :
    val_main_v17 (F := Ideal) Q K P W (ix4 b h n m) = rowSoftmax (refRow Q K P W b h n) m := by
  rw [val_main_v17_apply, val_main_v16_apply, val_main_v15_apply]
  have hj : idx_main_v15 (idx_main_v16 (ix4 b h n m)) = ix3 b h n :=
    funext fun a => Fin.ext (by match a with | ⟨0, _⟩ => rfl | ⟨1, _⟩ => rfl | ⟨2, _⟩ => rfl)
  rw [hj, val_main_v14_apply, ref_exp]
  unfold rowSoftmax
  show Ideal.div _ (Ideal.ofBits .f32 0x00000000#32 + _) = _
  rw [Ideal.ofBits_zero_f32, zero_add]
  refine congrArg (fun z => Ideal.div (rowExp (refRow Q K P W b h n) m) z) (Finset.sum_congr rfl fun m' _ => ?_)
  have hk : idx_main_v14 (ix3 b h n) m' = ix4 b h n m' :=
    funext fun a => Fin.ext (by match a with | ⟨0, _⟩ => rfl | ⟨1, _⟩ => rfl | ⟨2, _⟩ => rfl | ⟨3, _⟩ => rfl)
  rw [hk, ref_exp]

/-- THE REFERENCE'S VALUE: its result array, as a function of its five argument arrays, is `attention`. -/
theorem reference_eq : val_main_v18 (F := Ideal) Q K V P W = attention Q K V P W := by
  funext i
  obtain ⟨b, h, n, d, rfl⟩ : ∃ (b : Fin 2048) (h : Fin 8) (n : Fin 49) (d : Fin 64), i = ix4 b h n d :=
    ⟨i 0, i 1, i 2, i 3, eq_ix4 i⟩
  rw [attention_apply, val_main_v18_apply]
  unfold attnRow
  refine Finset.sum_congr rfl fun m _ => ?_
  have hl : lidx_main_v18 (ix4 b h n d) m = ix4 b h n m :=
    funext fun a => Fin.ext (by match a with | ⟨0, _⟩ => rfl | ⟨1, _⟩ => rfl | ⟨2, _⟩ => rfl | ⟨3, _⟩ => rfl)
  have hr : ridx_main_v18 (ix4 b h n d) m = ix4 b h m d :=
    funext fun a => Fin.ext (by match a with | ⟨0, _⟩ => rfl | ⟨1, _⟩ => rfl | ⟨2, _⟩ => rfl | ⟨3, _⟩ => rfl)
  rw [hl, hr, ref_weights]

end Cert.Attention

end
-- ==== Proof.lean ====
/-
  Windowed attention with a positional bias and a mask: the tiled kernel and the whole-array reference agree.

  Both programs compute, for every batch entry b, head h, query row n and feature d,
      out(b, h, n, d) = ∑_m softmax_m( ∑_e Q(b,h,n,e)·K(b,h,m,e) + P(h,n,m) + W(b,n,m) ) · V(b,h,m,d),
  the softmax taken over the 49 keys with the row maximum (a fold of `max` from −∞) subtracted before the
  exponential. The reference writes this on whole arrays. The kernel walks the 2048 batch entries in 256 steps of
  8, folds (batch entry, head) into one batch coordinate of 64 for its two matrix products, narrows their operands
  to bf16, and unfolds the results. On the extended reals a narrowing is the identity, a matrix product into a
  zero accumulator is the plain sum over the contracted coordinate, and the fold and unfold are re-indexings, so
  each block entry is the formula above read on one row (`Attention.payload_apply`); a block's row is a row of the
  arrays, the blocks cover the result (`Attention.kernel_run`), and the reference's stages, read at an entry from
  the result back to the arguments, are the same formula (`Attention.reference_eq`). Both sides apply the same
  operations in the same order to the same numbers, so no algebraic law is needed and the finiteness of the
  inputs is not used. The three frames are the generated ones; the idealization rewrote nothing.
-/
import proofs.«159746_j25056839204932_1_alg».proof.Defs
import proofs.«159746_j25056839204932_1_alg».proof.Proof.Gen.Kernel
import proofs.«159746_j25056839204932_1_alg».proof.Proof.Gen.Kernel.Skeleton
import proofs.«159746_j25056839204932_1_alg».proof.Proof.Gen.Kernel.Launch
import proofs.«159746_j25056839204932_1_alg».proof.Proof.Gen.Kernel.Points
import proofs.«159746_j25056839204932_1_alg».proof.Proof.Gen.Kernel.Frame
import proofs.«159746_j25056839204932_1_alg».proof.Proof.Gen.KernelIdeal
import proofs.«159746_j25056839204932_1_alg».proof.Proof.Gen.KernelIdeal.Skeleton
import proofs.«159746_j25056839204932_1_alg».proof.Proof.Gen.KernelIdeal.Launch
import proofs.«159746_j25056839204932_1_alg».proof.Proof.Gen.KernelIdeal.Points
import proofs.«159746_j25056839204932_1_alg».proof.Proof.Gen.KernelIdeal.Frame
import proofs.«159746_j25056839204932_1_alg».proof.Proof.Gen.ReferenceIdeal
import proofs.«159746_j25056839204932_1_alg».proof.Proof.Gen.Pre_finite_inputs
import proofs.«159746_j25056839204932_1_alg».proof.Proof.Gen.KernelIdeal.Value
import proofs.«159746_j25056839204932_1_alg».proof.Proof.Gen.ReferenceIdeal.Run
import proofs.«159746_j25056839204932_1_alg».proof.Proof.Gen.ReferenceIdeal.Read
import proofs.«159746_j25056839204932_1_alg».proof.Proof.KernelArray
import proofs.«159746_j25056839204932_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the five arguments both programs end with the result array at `attention` of
    those arguments: the kernel block by block, the reference stage by stage. -/
theorem algebraic : Cert.algebraic_KernelIdeal_ReferenceIdeal := by
  intro m ρ m' ρ' _ hagree
  refine ⟨_, Cert.Attention.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Attention.reference_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
